-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x16x2048x2048 : Shape := ⟨4, ![4, 16, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x16x2048x2048 1) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x16x2048x2048 : Shape := ⟨4, ![4, 16, 2048, 2048]⟩
abbrev S64x2048x64 : Shape := ⟨3, ![64, 2048, 64]⟩
abbrev S64x2048x2048 : Shape := ⟨3, ![64, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .i1⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S64x2048x2048, .i1⟩
  | .hbm, ⟨8, _⟩ => ⟨S64x2048x2048, .i32⟩
  | .hbm, ⟨9, _⟩ => ⟨S64x2048x64, .f32⟩
  | .hbm, ⟨10, _⟩ => ⟨S4x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x2048, .i32⟩
  | .local _ .vmem, ⟨7, _⟩ => ⟨S1x1024x2048, .i32⟩
  | .local _ .vmem, ⟨8, _⟩ => ⟨S1x1024x64, .f32⟩
  | .local _ .vmem, ⟨9, _⟩ => ⟨S1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x16x2048x64_S64x2048x64 : S4x16x2048x64.ShapeCasts S64x2048x64
  shapeCasts_S4x16x2048x2048_S64x2048x2048 : S4x16x2048x2048.ShapeCasts S64x2048x2048
  natLt_1_32 : 1 < 32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x64_S1x1024x64 : S1024x64.ShapeCasts S1x1024x64
  shapeCasts_S64x2048x64_S4x16x2048x64 : S64x2048x64.ShapeCasts S4x16x2048x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .f32 = 32 ∨ (Rect.block (s := S64x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S64x2048x2048.size a
  hwx0_3 : ∀ i : grid0.Coords, EltTy.bits .i32 = 32 ∨ (Rect.block (s := S64x2048x2048) S1x1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S64x2048x64.size a
  hwx0_4 : ∀ i : grid0.Coords, EltTy.bits .f32 = 32 ∨ (Rect.block (s := S64x2048x64) S1x1024x64.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .i1⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S_, .f32⟩
  | .hbm, ⟨10, _⟩ => ⟨S4x16x2048x2048, .f32⟩
  | .hbm, ⟨11, _⟩ => ⟨S4x16x2048x2048, .f32⟩
  | .hbm, ⟨12, _⟩ => ⟨S_, .f32⟩
  | .hbm, ⟨13, _⟩ => ⟨S4x16x2048, .f32⟩
  | .hbm, ⟨14, _⟩ => ⟨S_, .f32⟩
  | .hbm, ⟨15, _⟩ => ⟨S4x16x2048, .f32⟩
  | .hbm, ⟨16, _⟩ => ⟨S4x16x2048, .f32⟩
  | .hbm, ⟨17, _⟩ => ⟨S4x16x2048x1, .f32⟩
  | .hbm, ⟨18, _⟩ => ⟨S4x16x2048x2048, .f32⟩
  | .hbm, ⟨19, _⟩ => ⟨S4x16x2048x2048, .f32⟩
  | .hbm, ⟨20, _⟩ => ⟨S4x16x2048x2048, .f32⟩
  | .hbm, ⟨21, _⟩ => ⟨S_, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.LibMaxFold.lean ====
/- General facts about maxima over a finite family of extended reals taken from the bottom, and about the two
   maximum-reductions that compute them: a vector maximum-reduction and a host maximum-reduction along one axis, each
   started from the pattern of -infinity. Nothing here depends on a particular program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MaxFold

/-- The f32 pattern of -infinity denotes the bottom of the extended reals. -/
theorem ofBits_neg_inf : Ideal.ofBits .f32 0xFF800000#32 = ⊥ := by
  simp [Ideal.ofBits, Ideal.ieee]

/-- The maximum of a finite family taken from the bottom lies below an extended real iff every member does: the
    maximum by its universal property, with no order of folding in it. -/
theorem fold_max_univ_le {ι : Type} [Fintype ι] (f : ι → EReal) (x : EReal) :
    (Finset.univ : Finset ι).fold max ⊥ f ≤ x ↔ ∀ k, f k ≤ x := by
  rw [Finset.fold_max_le]
  simp

/-- A vector maximum-reduction along ONE axis from the pattern of -infinity, read on the extended reals at a reduced
    index `j`: the maximum, from the bottom, over that axis's coordinates of the source at `j` with the coordinate
    inserted. The hypotheses are typed as a printed body's proof arguments are. -/
theorem maxRed_apply {s t : Shape} {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j
      = (Finset.univ : Finset (Fin (s.size a))).fold max ⊥ (src ∘ h.lift j) := by
  rw [Ideal.multiReduction_maximumf_single]
  show Finset.fold max (Ideal.ofBits .f32 0xFF800000#32) _ _ = _
  rw [ofBits_neg_inf]

/-- The host's one-operand reduction with a maximum body along ONE axis from the constant -infinity, read on the
    extended reals at a reduced index `j`: the same maximum. -/
theorem hostMaxRed_apply {s t u : Shape} {a : Fin s.rank} (x : FVec Ideal s .f32) (h' : s.ReducesTo [a] t) (h : s.Reduces [a] t)
    (hu : 0 < u.numel) (j : t.Idx) :
    Host.reduce FloatOps.maximumf x (constant (F := Ideal) u .f32 0xFF800000#32) h' hu j
      = (Finset.univ : Finset (Fin (s.size a))).fold max ⊥ (x ∘ h.lift j) := by
  rw [Host.reduce_eq_fold_single FloatOps.maximumf x _ h' h hu]
  show Finset.fold max (Ideal.ofBits .f32 0xFF800000#32) _ _ = _
  rw [ofBits_neg_inf]

end Cert.Lib.MaxFold

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.LibRowSoftmax.lean ====
/- Row-wise softmax of a matrix, for any extents, on the extended reals.

   `softmaxRow f c` is the softmax of a finite family `f` at `c`: the exponential of `f c` shifted by the family's
   maximum (taken from the bottom), over the sum of all such exponentials.  The vector body that computes it for every
   row of an `[A, B]` matrix — reduce each row by a maximum from -infinity, make the result a column, broadcast it
   along the lanes, subtract, exponentiate, sum each row from the neutral accumulator, make that a column, broadcast
   it, divide — read at (p, c) is `softmaxRow` of row p at c.  Nothing here depends on a particular program. -/
import Idealize.ShloMosaic.PureOps.Ideal
import Idealize.ShloMosaic.PureOps.Ideal.Laws
import Idealize.ShloMosaic.Lib.ValueIdx
import Idealize.ShloMosaic.Lib.Pipeline.Value
import proofs.«121005_j38508676776685_2_alg».proof.Proof.LibMaxFold
import proofs.«121005_j38508676776685_2_alg».proof.Proof.LibPlainMatmul
import proofs.«121005_j38508676776685_2_alg».proof.Proof.LibBroadcastReads
import proofs.«121005_j38508676776685_2_alg».proof.Proof.LibColumnReads

noncomputable section

open scoped BigOperators

open Idealize.ShloMosaic Idealize.ShloMosaic.ValueIdx

namespace Cert.Lib.RowSoftmax

/-- The softmax of a finite family of extended reals at `c`. -/
def softmaxRow {B : ℕ} (f : Fin B → EReal) (c : Fin B) : EReal :=
  Ideal.div (Ideal.exp (f c - (Finset.univ : Finset (Fin B)).fold max ⊥ f))
    (∑ c' : Fin B, Ideal.exp (f c' - (Finset.univ : Finset (Fin B)).fold max ⊥ f))

variable {A B : ℕ}

/-- The exponentials of a matrix shifted row by row by the row's maximum, as the vector body computes them. -/
def shifted (s : FVec Ideal ⟨2, ![A, B]⟩ .f32) (hr : (⟨2, ![A, B]⟩ : Shape).Reduces [1] ⟨1, ![A]⟩) (hφ : FKind.Formats .f32)
    (hm : (0xFF800000#32 : BitVec 32) = FKind.maximumf.neutral .f32 hφ) (hc : (⟨1, ![A]⟩ : Shape).ShapeCasts ⟨2, ![A, 1]⟩)
    (hb : (⟨2, ![A, 1]⟩ : Shape).Broadcasts ⟨2, ![A, B]⟩) : FVec Ideal ⟨2, ![A, B]⟩ .f32 :=
  exp (subf s (broadcastTo ⟨2, ![A, B]⟩
    (shapeCast ⟨2, ![A, 1]⟩ (multiReduction .maximumf [1] ⟨1, ![A]⟩ s 0xFF800000#32 hr hφ hm) hc) hb))

/-- At (p, c): the exponential of the entry minus the maximum of row p. -/
theorem shifted_apply (s : FVec Ideal ⟨2, ![A, B]⟩ .f32) (hr : (⟨2, ![A, B]⟩ : Shape).Reduces [1] ⟨1, ![A]⟩)
    (hφ : FKind.Formats .f32) (hm : (0xFF800000#32 : BitVec 32) = FKind.maximumf.neutral .f32 hφ)
    (hc : (⟨1, ![A]⟩ : Shape).ShapeCasts ⟨2, ![A, 1]⟩) (hb : (⟨2, ![A, 1]⟩ : Shape).Broadcasts ⟨2, ![A, B]⟩)
    (p : Fin A) (c : Fin B) :
    shifted s hr hφ hm hc hb (ix2 p c)
      = Ideal.exp (s (ix2 p c) - (Finset.univ : Finset (Fin B)).fold max ⊥ (fun c' => s (ix2 p c'))) := by
  show Ideal.exp (s (ix2 p c) - broadcastTo ⟨2, ![A, B]⟩
    (shapeCast ⟨2, ![A, 1]⟩ (multiReduction .maximumf [1] ⟨1, ![A]⟩ s 0xFF800000#32 hr hφ hm) hc) hb (ix2 p c)) = _
  rw [Cert.Lib.BroadcastReads.broadcastTo_a1_ab_apply, Cert.Lib.ColumnReads.shapeCast_a_a1_apply,
    Cert.Lib.MaxFold.maxRed_apply]
  refine congrArg (fun z => Ideal.exp (s (ix2 p c) - z)) ?_
  refine congrArg (fun f => Finset.fold max ⊥ f Finset.univ) (funext fun c' => congrArg s (funext fun a => Fin.ext ?_))
  match a with
  | ⟨0, _⟩ => rfl
  | ⟨1, _⟩ => rfl

/-- The whole row-softmax body read at (p, c) is the softmax of row p at c. -/
theorem rowSoftmax_apply (s : FVec Ideal ⟨2, ![A, B]⟩ .f32) (hr : (⟨2, ![A, B]⟩ : Shape).Reduces [1] ⟨1, ![A]⟩)
    (hφ : FKind.Formats .f32) (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (c : Fin B) :
    divf (shifted s hr hφ hm hc hb) (broadcastTo ⟨2, ![A, B]⟩
      (shapeCast ⟨2, ![A, 1]⟩ (multiReduction .add [1] ⟨1, ![A]⟩ (shifted s hr hφ hm hc hb) 0x00000000#32 hr hφ ha) hc) hb)
      (ix2 p c)
      = softmaxRow (fun c' => s (ix2 p c')) c := by
  show Ideal.div (shifted s hr hφ hm hc hb (ix2 p c)) (broadcastTo ⟨2, ![A, B]⟩
    (shapeCast ⟨2, ![A, 1]⟩ (multiReduction .add [1] ⟨1, ![A]⟩ (shifted s hr hφ hm hc hb) 0x00000000#32 hr hφ ha) hc) hb
    (ix2 p c)) = _
  rw [Cert.Lib.BroadcastReads.broadcastTo_a1_ab_apply, Cert.Lib.ColumnReads.shapeCast_a_a1_apply,
    Cert.Lib.PlainMatmul.rowSum_apply, shifted_apply]
  unfold softmaxRow
  exact congrArg (Ideal.div _) (Finset.sum_congr rfl fun c' _ => shifted_apply s hr hφ hm hc hb p c')

end Cert.Lib.RowSoftmax

end
-- ==== Proof.AttnSpec.lean ====
/- Masked scaled dot-product attention over [4, 16, 2048, 64] queries, keys and values, as ONE function of the four
   argument arrays, index by index, on the extended reals.

   For a batch b, a head h and a query row q, the score against key row k is the contraction over the 64 features of
   Q(b,h,q,·) against K(b,h,k,·), times 1/8 (the reciprocal of the square root of the 64 features, a power of two),
   replaced by the fill value -10^9 where the mask bit at (b,h,q,k) is set.  The weights of row q are the softmax of
   its 2048 scores (shifted by their maximum), and the result at (b,h,q,d) is the sum over k of weight k times
   V(b,h,k,d).

   The one algebraic law the two programs differ by: one scales every feature of Q by 1/8 before the contraction,
   the other scales the contraction.  A nonnegative real factor distributes over a sum of extended reals whatever
   the summands are (infinite ones included), so the two agree with no finiteness assumption. -/
import Idealize.ShloMosaic.PureOps.Ideal
import Idealize.ShloMosaic.Lib.ValueIdx
import proofs.«121005_j38508676776685_2_alg».proof.Proof.LibRowSoftmax

noncomputable section

open scoped BigOperators

open Idealize.ShloMosaic Idealize.ShloMosaic.ValueIdx

namespace Cert.Attn

/-- The f32 pattern 0x3E000000 denotes the real 1/8. -/
theorem ofBits_eighth : Ideal.ofBits .f32 0x3E000000#32 = ((0.125 : ℝ) : EReal) := by
  simp [Ideal.ofBits, Ideal.ieee, -EReal.coe_mul]; norm_num

theorem eighth_nonneg : (0 : EReal) ≤ Ideal.ofBits .f32 0x3E000000#32 := by
  rw [ofBits_eighth]; exact_mod_cast (by norm_num : (0 : ℝ) ≤ 0.125)

theorem eighth_ne_top : Ideal.ofBits .f32 0x3E000000#32 ≠ ⊤ := by
  rw [ofBits_eighth]; exact EReal.coe_ne_top _

/-- Scaling every left factor of a contraction by a nonnegative real is scaling the contraction: for a finite family
    of products of extended reals, with no condition on the factors. -/
theorem sum_scaled_mul {ι : Type} (s : Finset ι) (c : EReal) (hc0 : 0 ≤ c) (hct : c ≠ ⊤) (a b : ι → EReal) :
    ∑ d ∈ s, (a d * c) * b d = (∑ d ∈ s, a d * b d) * c := by
  classical
  induction s using Finset.induction_on with
  | empty => simp
  | insert x s hx ih =>
    rw [Finset.sum_insert hx, Finset.sum_insert hx, ih, EReal.right_distrib_of_nonneg_of_ne_top hc0 hct,
      mul_right_comm]

abbrev SQ : Shape := ⟨4, ![4, 16, 2048, 64]⟩
abbrev SM : Shape := ⟨4, ![4, 16, 2048, 2048]⟩

/-- The masked, scaled score of query row q against key row k, in batch b and head h. -/
def score (Q K : SQ.Idx → EReal) (M : SM.Idx → BitVec 1) (b : Fin 4) (h : Fin 16) (q k : Fin 2048) : EReal :=
  Scalar.select (M (ix4 b h q k)) (Ideal.ofBits .f32 0xCE6E6B28#32)
    ((∑ d : Fin 64, Q (ix4 b h q d) * K (ix4 b h k d)) * Ideal.ofBits .f32 0x3E000000#32)

/-- Attention at (b, h, q, d): the softmax weights of row q against column d of V. -/
def attn (Q K V : SQ.Idx → EReal) (M : SM.Idx → BitVec 1) : SQ.Idx → EReal := fun i =>
  ∑ k : Fin 2048, Cert.Lib.RowSoftmax.softmaxRow (score Q K M (i 0) (i 1) (i 2)) k * V (ix4 (i 0) (i 1) k (i 3))

end Cert.Attn

end
-- ==== Proof.LibDotReads.lean ====
/- Contractions and two column layouts read at coordinates, on the extended reals, for any extents.
   A matrix product into the zero accumulator, read at (p, c), is one sum over the contraction coordinate k:
   of left(k, p) · right(c, k) when the left operand is contracted on its first axis and the right on its last;
   of left(p, k) · right(c, k) when both are contracted on their last axis. The host's product with the plain
   dimension numbers (rows × contraction by contraction × columns), which has no accumulator, is the sum of
   left(p, k) · right(k, c). A vector of a entries cast to an [a, 1] column reads its entry i at (i, 0), and a
   [1, 1] value broadcast along a row of b entries reads its one entry everywhere. Nothing here depends on a
   particular program: a printed record with the same axis lists is the record used here by `rfl`. -/
import Idealize.ShloMosaic.PureOps.Ideal
import Idealize.ShloMosaic.PureOps.Ideal.Laws
import Idealize.ShloMosaic.Lib.ValueIdx
import Idealize.ShloMosaic.Lib.Pipeline.Value

noncomputable section

open scoped BigOperators

open Idealize.ShloMosaic Idealize.ShloMosaic.ValueIdx

namespace Cert.Lib.DotReads

/-- The dimension numbers of a [K, M] matrix contracted on its FIRST axis with an [N, K] matrix contracted on its
    LAST axis, giving [M, N]: result (p, c) pairs the left operand's column p with the right operand's row c. -/
def firstLast (M K N : Nat) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

/-- Left contracted on its first axis, right on its last, into the zero accumulator, at (p, c): the sum over k of
    left(k, p) · right(c, k). -/
theorem firstLast_matmul_zero_apply {M K N : ℕ} {φ₁ φ₂ : FTy} (l : FVec Ideal ⟨2, ![K, M]⟩ φ₁) (r : FVec Ideal ⟨2, ![N, K]⟩ φ₂)
    (p : Fin M) (c : Fin N) :
    FloatOps.matmul (firstLast M K N) none l r (constant (F := Ideal) ⟨2, ![M, N]⟩ .f32 0x00000000#32) (ix2 p c)
      = ∑ k : Fin K, l (ix2 k p) * r (ix2 c k) := by
  rw [Ideal.matmul_constant_zero_apply, ← Equiv.sum_comp (contrEquiv1 (firstLast M K N) K rfl rfl).symm]
  refine Finset.sum_congr rfl fun k _ => ?_
  have hk := contrEquiv1_symm_val (firstLast M K N) K rfl rfl k
  have el : (firstLast M K N).lhsIdx (ix2 p c) ((contrEquiv1 (firstLast M K N) K rfl rfl).symm k) = ix2 k p :=
    funext fun a => Fin.ext (by
      match a with
      | ⟨0, _⟩ => exact ((firstLast M K N).lhsIdx_val_of_single rfl _ _).trans hk
      | ⟨1, _⟩ => rfl)
  have er : (firstLast M K N).rhsIdx (ix2 p c) ((contrEquiv1 (firstLast M K N) K rfl rfl).symm k) = ix2 c k :=
    funext fun a => Fin.ext (by
      match a with
      | ⟨0, _⟩ => rfl
      | ⟨1, _⟩ => exact ((firstLast M K N).rhsIdx_val_of_single rfl _ _).trans hk)
  rw [el, er]

/-- Both operands contracted on their last axis, into the zero accumulator, at (p, c): the sum over k of
    left(p, k) · right(c, k). -/
theorem lastLast_matmul_zero_apply {M K N : ℕ} {φ₁ φ₂ : FTy} (l : FVec Ideal ⟨2, ![M, K]⟩ φ₁) (r : FVec Ideal ⟨2, ![N, K]⟩ φ₂)
    (p : Fin M) (c : Fin N) :
    FloatOps.matmul (DotDims.transposedRhs M K N) none l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => rfl
      | ⟨1, _⟩ => exact ((DotDims.transposedRhs M K N).rhsIdx_val_of_single rfl _ _).trans hk)
  rw [el, er]

/-- The host's product with the plain dimension numbers, at (p, c): the sum over k of left(p, k) · right(k, c). -/
theorem plain_dotGeneral_apply {M K N : ℕ} {φ₁ φ₂ : FTy} (sched : HostSchedule) (l : FVec Ideal ⟨2, ![M, K]⟩ φ₁)
    (r : FVec Ideal ⟨2, ![K, N]⟩ φ₂) (p : Fin M) (c : Fin N) :
    FloatOps.dotGeneral (DotDims.plain M K N) none sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A vector of a entries cast to an [a, 1] column reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1] value broadcast along a row of b entries reads its one entry at every (u, c). -/
theorem broadcastTo_11_1b_apply {α : Type} {b : ℕ} (v : (⟨2, ![1, 1]⟩ : Shape).Idx → α)
    (h : (⟨2, ![1, 1]⟩ : Shape).Broadcasts ⟨2, ![1, b]⟩) (u : Fin 1) (c : Fin b) :
    broadcastTo ⟨2, ![1, b]⟩ v h (ix2 u c) = v (ix2 (0 : Fin 1) (0 : Fin 1)) := by
  refine broadcastTo_apply v h (ix2 u c) (ix2 (0 : Fin 1) (0 : Fin 1)) fun ax => ?_
  match ax with
  | ⟨0, _⟩ => rfl
  | ⟨1, _⟩ => rfl

end Cert.Lib.DotReads

end
-- ==== Proof.BodyValue.lean ====
/- What the kernel body stores, read at an index, on the extended reals.

   At a grid point the body holds one block of 1024 query rows (x0), the 2048 key rows (x1) and value rows (x2) of
   the same batch-and-head, and the matching 1024 x 2048 block of mask words (x3).  Row r of the block scores against
   key row k as the contraction over the 64 features of (x0(r,·) · 1/8) against x1(k,·) — which is the contraction
   times 1/8, a nonnegative real factor distributing over any sum of extended reals — replaced by the fill value
   where the mask word is not zero.  The weights are the row softmax of these scores, and the stored block at (r, d)
   is the sum over k of weight (r, k) times x2(k, d). -/
import proofs.«121005_j38508676776685_2_alg».proof.Proof.Gen.KernelIdeal.Skeleton
import proofs.«121005_j38508676776685_2_alg».proof.Proof.AttnSpec
import proofs.«121005_j38508676776685_2_alg».proof.Proof.LibDotReads
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx
open Cert.Lib.RowSoftmax

variable (x0 : Vec Ideal S1x1024x64 .f32) (x1 x2 : Vec Ideal S1x2048x64 .f32) (x3 : Vec Ideal S1x1024x2048 .i32)

/-- The masked, scaled score of the block's query row r against key row k, from the blocks the body loads. -/
def blockScore (r : Fin 1024) (k : Fin 2048) : EReal :=
  Scalar.select (IntOp.cmpi .ne (x3 (ix3 (0 : Fin 1) r k)) 0#32) (Ideal.ofBits .f32 0xCE6E6B28#32)
    ((∑ d : Fin 64, x0 (ix3 (0 : Fin 1) r d) * x1 (ix3 (0 : Fin 1) k d)) * Ideal.ofBits .f32 0x3E000000#32)

/-- The body's first contraction: the scaled query rows against the key rows. -/
def raw : FVec Ideal S1024x2048 .f32 :=
  matmul dot_S1024x64_S2048x64_S1024x2048_1_1_0_0_n_n none
    (truncf .bf16 (mulf (shapeCast S1024x64 x0 shapeCasts_S1x1024x64_S1024x64)
      (broadcast S1024x64 (Scalar.ofBits (F := Ideal) .f32 0x3E000000#32))) bitsLt_bf16_f32)
    (truncf .bf16 (shapeCast S2048x64 x1 shapeCasts_S1x2048x64_S2048x64) bitsLt_bf16_f32)
    (constant S1024x2048 .f32 0x00000000#32)

/-- The scores with the fill value where the mask word is not zero. -/
def masked : FVec Ideal S1024x2048 .f32 :=
  select (cmpi .ne (shapeCast S1024x2048 x3 shapeCasts_S1x1024x2048_S1024x2048) (constantI S1024x2048 32 0#32))
    (broadcast S1024x2048 (Scalar.ofBits (F := Ideal) .f32 0xCE6E6B28#32)) (raw x0 x1)

/-- The row softmax of the masked scores, as the body computes it. -/
def weights : FVec Ideal S1024x2048 .f32 :=
  divf (shifted (masked x0 x1 x3) reduces_S1024x2048_S1024 (.inl rfl) rfl shapeCasts_S1024_S1024x1 broadcasts_S1024x1_S1024x2048)
    (broadcastTo S1024x2048
      (shapeCast S1024x1
        (multiReduction .add [1] S1024
          (shifted (masked x0 x1 x3) reduces_S1024x2048_S1024 (.inl rfl) rfl shapeCasts_S1024_S1024x1 broadcasts_S1024x1_S1024x2048)
          0x00000000#32 reduces_S1024x2048_S1024 (.inl rfl) rfl)
        shapeCasts_S1024_S1024x1)
      broadcasts_S1024x1_S1024x2048)

/-- The stored value is the weights contracted against the value rows, cast to the block's shape. -/
theorem pay_eq : k0_pay1 (F := Ideal) x0 x1 x2 x3
    = shapeCast S1x1024x64
        (matmul dot_S1024x2048_S2048x64_S1024x64_1_0_0_1_n_n none (truncf .bf16 (weights x0 x1 x3) bitsLt_bf16_f32)
          (truncf .bf16 (shapeCast S2048x64 x2 shapeCasts_S1x2048x64_S2048x64) bitsLt_bf16_f32)
          (constant S1024x64 .f32 0x00000000#32))
        shapeCasts_S1024x64_S1x1024x64 := rfl

/-- The first contraction at (r, k): the contraction of the unscaled rows, times 1/8. -/
theorem raw_at (r : Fin 1024) (k : Fin 2048) :
    raw x0 x1 (ix2 r k)
      = (∑ d : Fin 64, x0 (ix3 (0 : Fin 1) r d) * x1 (ix3 (0 : Fin 1) k d)) * Ideal.ofBits .f32 0x3E000000#32 := by
  unfold raw
  refine (Cert.Lib.DotReads.lastLast_matmul_zero_apply (M := 1024) (K := 64) (N := 2048) _ _ r k).trans ?_
  rw [← Cert.Attn.sum_scaled_mul Finset.univ _ Cert.Attn.eighth_nonneg Cert.Attn.eighth_ne_top]
  refine Finset.sum_congr rfl fun d _ => ?_
  show (shapeCast S1024x64 x0 shapeCasts_S1x1024x64_S1024x64 (ix2 r d) * Ideal.ofBits .f32 0x3E000000#32)
    * shapeCast S2048x64 x1 shapeCasts_S1x2048x64_S2048x64 (ix2 k d) = _
  rw [shapeCast_1ab_ab_apply, shapeCast_1ab_ab_apply]

/-- The masked scores at (r, k). -/
theorem masked_at (r : Fin 1024) (k : Fin 2048) : masked x0 x1 x3 (ix2 r k) = blockScore x0 x1 x3 r k := by
  unfold masked blockScore
  show Scalar.select (IntOp.cmpi .ne (shapeCast S1024x2048 x3 shapeCasts_S1x1024x2048_S1024x2048 (ix2 r k)) 0#32)
    (Ideal.ofBits .f32 0xCE6E6B28#32) (raw x0 x1 (ix2 r k)) = _
  rw [shapeCast_1ab_ab_apply, raw_at]

/-- The weights at (r, k): the softmax of row r's masked scores at k. -/
theorem weights_at (r : Fin 1024) (k : Fin 2048) :
    weights x0 x1 x3 (ix2 r k) = softmaxRow (blockScore x0 x1 x3 r) k := by
  unfold weights
  refine (rowSoftmax_apply (masked x0 x1 x3) reduces_S1024x2048_S1024 (.inl rfl) rfl rfl shapeCasts_S1024_S1024x1
    broadcasts_S1024x1_S1024x2048 r k).trans ?_
  exact congrArg (fun f => softmaxRow f k) (funext fun k' => masked_at x0 x1 x3 r k')

/-- The stored block at (0, r, d): the weights of row r against column d of the value rows. -/
theorem pay_at (r : Fin 1024) (d : Fin 64) :
    k0_pay1 (F := Ideal) x0 x1 x2 x3 (ix3 (0 : Fin 1) r d)
      = ∑ k : Fin 2048, softmaxRow (blockScore x0 x1 x3 r) k * x2 (ix3 (0 : Fin 1) k d) := by
  rw [pay_eq]
  refine (shapeCast_ab_1ab_apply _ shapeCasts_S1024x64_S1x1024x64 0 r d).trans ?_
  refine (Cert.Lib.PlainMatmul.plain_matmul_zero_apply (M := 1024) (K := 2048) (N := 64) _ _ r d).trans ?_
  refine Finset.sum_congr rfl fun k _ => ?_
  show weights x0 x1 x3 (ix2 r k) * shapeCast S2048x64 x2 shapeCasts_S1x2048x64_S2048x64 (ix2 k d) = _
  rw [weights_at, shapeCast_1ab_ab_apply]

end Cert.KernelIdeal.BodyValue

end
-- ==== Proof.LibMergeLead.lean ====
/- Two leading axes merged into one, or one leading axis split in two, by a shape cast, read at coordinates: for any
   element type and any extents.  A [a, b, c, e] array cast to [G, c, e] reads, at (g, p, q) with g = i·b + j, the
   operand at (i, j, p, q); a [G, c, e] array cast to [a, b, c, e] reads, at (i, j, p, q), the operand at (g, p, q).
   Both have the same row-major position on the two sides.  Nothing here depends on a particular program. -/
import Idealize.ShloMosaic.Lib.Pipeline.Value
import Idealize.ShloMosaic.Lib.ValueIdx

noncomputable section

open Idealize.ShloMosaic Idealize.ShloMosaic.ValueIdx

namespace Cert.Lib.MergeLead

variable {α : Type} {a b c e G : ℕ}

/-- Merging the two leading axes: at (g, p, q) with g = i·b + j, the operand at (i, j, p, q). -/
theorem shapeCast_merge_apply (x : (⟨4, ![a, b, c, e]⟩ : Shape).Idx → α)
    (h : (⟨4, ![a, b, c, e]⟩ : Shape).ShapeCasts ⟨3, ![G, c, e]⟩) (i : Fin a) (j : Fin b) (p : Fin c) (q : Fin e)
    (g : Fin G) (hg : g.val = i.val * b + j.val) :
    shapeCast ⟨3, ![G, c, e]⟩ x h (ix3 g p q) = x (ix4 i j p q) :=
  shapeCast_apply x h _ _ (by
    rw [Shape.rowMajor_val_four, Shape.rowMajor_val_three]
    show ((i.val * b + j.val) * c + p.val) * e + q.val = (g.val * c + p.val) * e + q.val
    rw [hg])

/-- Splitting the leading axis in two: at (i, j, p, q), the operand at (g, p, q) with g = i·b + j. -/
theorem shapeCast_split_apply (y : (⟨3, ![G, c, e]⟩ : Shape).Idx → α)
    (h : (⟨3, ![G, c, e]⟩ : Shape).ShapeCasts ⟨4, ![a, b, c, e]⟩) (i : Fin a) (j : Fin b) (p : Fin c) (q : Fin e)
    (g : Fin G) (hg : g.val = i.val * b + j.val) :
    shapeCast ⟨4, ![a, b, c, e]⟩ y h (ix4 i j p q) = y (ix3 g p q) :=
  shapeCast_apply y h _ _ (by
    rw [Shape.rowMajor_val_four, Shape.rowMajor_val_three]
    show (g.val * c + p.val) * e + q.val = ((i.val * b + j.val) * c + p.val) * e + q.val
    rw [hg])

end Cert.Lib.MergeLead

end
-- ==== Proof.PointValue.lean ====
/- The attention function over the arrays the region sees, and the body's stored block against it.

   The region works on [64, 2048, ·] arrays: batch and head merged into one leading axis g, the mask widened to
   32-bit words.  `attn3` is attention over those: the score of query row q against key row k in slice g is the
   contraction over the 64 features times 1/8, or the fill value where the mask word is not zero; the result at
   (g, q, d) is the sum over k of the softmax weight of k in row q times A2(g, k, d).

   A grid point's stored block agrees with it: if the loaded blocks are, coordinate by coordinate, the rows of the
   arrays the point's index maps select (query rows and mask rows at q, all 2048 key and value rows of slice g),
   then the block's entry (r, d) is `attn3` at (g, q, d).

   And `attn3` of the reshaped arguments is the 4-D attention of the arguments: a merged leading index g = 16·b + h
   reads the argument at (b, h, ·, ·), and a one-bit mask widened to a word is nonzero exactly when the bit is set. -/
import proofs.«121005_j38508676776685_2_alg».proof.Proof.BodyValue
import proofs.«121005_j38508676776685_2_alg».proof.Proof.LibMergeLead

noncomputable section

open scoped BigOperators

namespace Cert.KernelIdeal.PointValue

open Cert.KernelIdeal Cert.KernelIdeal.Gen Idealize.ShloMosaic Idealize.ShloMosaic.ValueIdx
open Cert.Lib.RowSoftmax Cert.KernelIdeal.BodyValue

section Region

variable (A0 A1 A2 : S64x2048x64.Idx → EReal) (A3 : S64x2048x2048.Idx → BitVec 32)

/-- The masked, scaled score of query row q against key row k in slice g. -/
def score3 (g : Fin 64) (q k : Fin 2048) : EReal :=
  Scalar.select (IntOp.cmpi .ne (A3 (ix3 g q k)) 0#32) (Ideal.ofBits .f32 0xCE6E6B28#32)
    ((∑ d : Fin 64, A0 (ix3 g q d) * A1 (ix3 g k d)) * Ideal.ofBits .f32 0x3E000000#32)

/-- Attention over the region's arrays at (g, q, d). -/
def attn3 : S64x2048x64.Idx → EReal := fun i =>
  ∑ k : Fin 2048, softmaxRow (score3 A0 A1 A3 (i 0) (i 1)) k * A2 (ix3 (i 0) k (i 2))

/-- A point's stored block at (0, r, d) is `attn3` at (g, q, d), when the loaded blocks are the rows of the arrays
    that the point selects. -/
theorem point_eq (x0 : Vec Ideal S1x1024x64 .f32) (x1 x2 : Vec Ideal S1x2048x64 .f32) (x3 : Vec Ideal S1x1024x2048 .i32)
    (g : Fin 64) (q : Fin 2048) (r : Fin 1024) (d : Fin 64)
    (h0 : ∀ d' : Fin 64, x0 (ix3 (0 : Fin 1) r d') = A0 (ix3 g q d'))
    (h1 : ∀ (k : Fin 2048) (d' : Fin 64), x1 (ix3 (0 : Fin 1) k d') = A1 (ix3 g k d'))
    (h2 : ∀ k : Fin 2048, x2 (ix3 (0 : Fin 1) k d) = A2 (ix3 g k d))
    (h3 : ∀ k : Fin 2048, x3 (ix3 (0 : Fin 1) r k) = A3 (ix3 g q k)) :
    k0_pay1 (F := Ideal) x0 x1 x2 x3 (ix3 (0 : Fin 1) r d) = attn3 A0 A1 A2 A3 (ix3 g q d) := by
  rw [pay_at]
  show _ = ∑ k : Fin 2048, softmaxRow (score3 A0 A1 A3 g q) k * A2 (ix3 g k d)
  refine Finset.sum_congr rfl fun k _ => ?_
  rw [h2 k]
  refine congrArg (fun f => softmaxRow f k * A2 (ix3 g k d)) (funext fun k' => ?_)
  unfold blockScore score3
  rw [h3 k']
  simp only [h0, h1]

end Region

/-- A one-bit value widened to a word is nonzero exactly when the bit is set. -/
theorem ne_zero_of_widened : ∀ b : BitVec 1, IntOp.cmpi .ne (b.setWidth 32) 0#32 = b := by decide

/-- Attention over the reshaped arguments at (g, q, d), g = 16·b + h, is the 4-D attention at (b, h, q, d). -/
theorem attn3_reshaped (Q K V : Cert.Attn.SQ.Idx → EReal) (M : Cert.Attn.SM.Idx → BitVec 1)
    (hq : S4x16x2048x64.ShapeCasts S64x2048x64) (hm : S4x16x2048x2048.ShapeCasts S64x2048x2048) (hw : 1 < 32)
    (b : Fin 4) (h : Fin 16) (q : Fin 2048) (d : Fin 64) (g : Fin 64) (hg : g.val = b.val * 16 + h.val) :
    attn3 (shapeCast S64x2048x64 Q hq) (shapeCast S64x2048x64 K hq) (shapeCast S64x2048x64 V hq)
        (extui 32 (shapeCast S64x2048x2048 M hm) hw) (ix3 g q d)
      = Cert.Attn.attn Q K V M (ix4 b h q d) := by
  show ∑ k : Fin 2048, softmaxRow (score3 (shapeCast S64x2048x64 Q hq) (shapeCast S64x2048x64 K hq)
      (extui 32 (shapeCast S64x2048x2048 M hm) hw) g q) k * shapeCast S64x2048x64 V hq (ix3 g k d)
    = ∑ k : Fin 2048, softmaxRow (Cert.Attn.score Q K M b h q) k * V (ix4 b h k d)
  refine Finset.sum_congr rfl fun k _ => ?_
  rw [Cert.Lib.MergeLead.shapeCast_merge_apply V hq b h k d g hg]
  refine congrArg (fun f => softmaxRow f k * V (ix4 b h k d)) (funext fun k' => ?_)
  unfold score3 Cert.Attn.score
  show Scalar.select (IntOp.cmpi .ne ((shapeCast S64x2048x2048 M hm (ix3 g q k')).setWidth 32) 0#32) _ _ = _
  rw [ne_zero_of_widened, Cert.Lib.MergeLead.shapeCast_merge_apply M hm b h q k' g hg]
  simp only [Cert.Lib.MergeLead.shapeCast_merge_apply Q hq b h q _ g hg,
    Cert.Lib.MergeLead.shapeCast_merge_apply K hq b h k' _ g hg]

end Cert.KernelIdeal.PointValue

end
-- ==== Proof.KernelValue.lean ====
/- The idealized kernel's result array after the run, as the attention function of the four arguments.

   The grid has 64 x 2 points; point (g, o) takes query rows 1024·o … 1024·o + 1023 of slice g with the mask rows of
   the same range, all 2048 key rows and value rows of slice g, and writes back rows 1024·o … of slice g of the
   output.  So what a point writes back is its block of the region-level attention (`attn3`) of the arrays as the
   region finds them; the blocks tile the output (row q of slice g belongs to point (g, q / 1024)), so the output array
   ends holding `attn3` whole.  The arrays the region finds are the arguments with batch and head merged (and the mask
   widened), and the program's result is the output with the leading axis split again: index by index that is the
   4-D attention of the arguments. -/
import proofs.«121005_j38508676776685_2_alg».proof.Proof.Gen.KernelIdeal.Frame
import proofs.«121005_j38508676776685_2_alg».proof.Proof.PointValue
import Idealize.ShloMosaic.Lib.StableHlo.Run
import Idealize.ShloMosaic.Lib.Pipeline.Value

set_option maxRecDepth 16384

noncomputable section

open scoped BigOperators

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.KernelIdeal.PointValue

variable (m : (ℓ : Loc nD τ sig) → Buf (Elt Ideal) ℓ) (ρ : Dev nD → PrngReg)

/-! ## The arrays the region finds -/

theorem V_v0 (c : Dev nD) : (V m c main_v0 : S64x2048x64.Idx → EReal)
    = shapeCast S64x2048x64 (m ((c : Thread nD τ).loc main_arg0)) shapeCasts_S4x16x2048x64_S64x2048x64 := by
  show StableHlo.after hostOps0 (fun b => m (c, b)) (Proc.devRef .tc main_v0) = _
  after_results
  rfl

theorem V_v1 (c : Dev nD) : (V m c main_v1 : S64x2048x64.Idx → EReal)
    = shapeCast S64x2048x64 (m ((c : Thread nD τ).loc main_arg1)) shapeCasts_S4x16x2048x64_S64x2048x64 := by
  show StableHlo.after hostOps0 (fun b => m (c, b)) (Proc.devRef .tc main_v1) = _
  after_results
  rfl

theorem V_v2 (c : Dev nD) : (V m c main_v2 : S64x2048x64.Idx → EReal)
    = shapeCast S64x2048x64 (m ((c : Thread nD τ).loc main_arg2)) shapeCasts_S4x16x2048x64_S64x2048x64 := by
  show StableHlo.after hostOps0 (fun b => m (c, b)) (Proc.devRef .tc main_v2) = _
  after_results
  rfl

theorem V_v4 (c : Dev nD) : (V m c main_v4 : S64x2048x2048.Idx → BitVec 32)
    = extui 32 (shapeCast S64x2048x2048 (m ((c : Thread nD τ).loc main_arg3)) shapeCasts_S4x16x2048x2048_S64x2048x2048)
        natLt_1_32 := by
  show StableHlo.after hostOps0 (fun b => m (c, b)) (Proc.devRef .tc main_v4) = _
  after_results
  rfl

/-! ## What a point writes back -/

theorem offsets_zero : (![0, 0, 0] : Fin 3 → Nat) = fun _ => 0 := funext fun a => by fin_cases a <;> rfl

/-- The printed index maps, decided over the grid: the query and mask windows move with the output window on the
    slice and row-block axes, the key and value windows on the slice axis only, and the output's block indices stay
    in their ranges. -/
theorem index_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0
    ∧ win0_1.index t (2 : Fin 3) = 0
    ∧ win0_2.index t (0 : Fin 3) = win0_4.index t (0 : Fin 3) ∧ win0_2.index t (1 : Fin 3) = 0
    ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (0 : Fin 3) ≤ 63 ∧ win0_4.index t (1 : Fin 3) ≤ 1 ∧ win0_4.index t (2 : Fin 3) = 0 :=
  (by decide +kernel : ∀ t : Fin grid0.N, _)

/-- Every (slice, row block) is some point's. -/
theorem index_onto : ∀ (q0 : Fin 64) (q1 : Fin 2), ∃ t : Fin cfg0.N, win0_4.index t = ![q0.val, q1.val, 0] :=
  (by decide +kernel : ∀ (q0 : Fin 64) (q1 : Fin 2), ∃ t : Fin grid0.N, win0_4.index t = ![q0.val, q1.val, 0])

/-- The block a grid point writes back is that point's block of the region-level attention of the arrays as the
    region finds them: each loaded block is the rows of its array that the point's index map selects. -/
theorem flushed_eq (c : Dev nD) (t : Fin cfg0.N) :
    (dats m 0 c).flushed 4 t = ((cfg0.win 4).blk t).view.read (Elt Ideal)
      (attn3 (V m c main_v0) (V m c main_v1) (V m c main_v2) (V m c main_v4)) := by
  show (cfg0.win 4).cut (grid0.coords t) ((dats m 0 c).after 4 t) = _
  rw [after0_4]
  unfold out0_4
  rw [View.canon_unit_zero offsets_zero]
  simp only [View.ld_unit_zero (S := S1x1024x64) offsets_zero, View.ld_unit_zero (S := S1x2048x64) offsets_zero,
    View.ld_unit_zero (S := S1x1024x2048) offsets_zero]
  obtain ⟨a00, a01, a02, a10, a11, a12, a20, a21, a22, a30, a31, a32, b0, b1, b2⟩ := index_facts t
  funext j
  obtain ⟨u, r, d, rfl⟩ : ∃ (u : Fin 1) (r : Fin 1024) (d : Fin 64), j = ix3 u r d := ⟨j 0, j 1, j 2, eq_ix3 j⟩
  obtain rfl : u = 0 := Subsingleton.elim _ _
  have hg : win0_4.index t (0 : Fin 3) < 64 := by omega
  have hq : win0_4.index t (1 : Fin 3) * 1024 + r.val < 2048 := by have := r.isLt; omega
  show k0_pay1 (iblk m c 0 t) (iblk m c 1 t) (iblk m c 2 t) (iblk m c 3 t) (ix3 (0 : Fin 1) r d)
    = attn3 (V m c main_v0) (V m c main_v1) (V m c main_v2) (V m c main_v4) (((cfg0.win 4).blk t).view.emb (ix3 (0 : Fin 1) r d))
  have hemb : ((cfg0.win 4).blk t).view.emb (ix3 (0 : Fin 1) r d)
      = ix3 (⟨win0_4.index t (0 : Fin 3), hg⟩ : Fin 64) (⟨win0_4.index t (1 : Fin 3) * 1024 + r.val, hq⟩ : Fin 2048) d :=
    funext fun a => Fin.ext (by
      match a with
      | ⟨0, _⟩ => show win0_4.index t (0 : Fin 3) * 1 + 1 * 0 = win0_4.index t (0 : Fin 3); omega
      | ⟨1, _⟩ => show win0_4.index t (1 : Fin 3) * 1024 + 1 * r.val = win0_4.index t (1 : Fin 3) * 1024 + r.val; omega
      | ⟨2, _⟩ => show win0_4.index t (2 : Fin 3) * 64 + 1 * d.val = d.val; omega)
  rw [hemb]
  refine point_eq _ _ _ _ (iblk m c 0 t) (iblk m c 1 t) (iblk m c 2 t) (iblk m c 3 t) _ _ r d ?_ ?_ ?_ ?_
  · intro d'
    show V m c main_v0 (((cfg0.win 0).blk t).view.emb (ix3 (0 : Fin 1) r d')) = _
    have e : ((cfg0.win 0).blk t).view.emb (ix3 (0 : Fin 1) r d')
        = ix3 (⟨win0_4.index t (0 : Fin 3), hg⟩ : Fin 64) (⟨win0_4.index t (1 : Fin 3) * 1024 + r.val, hq⟩ : Fin 2048) d' :=
      funext fun a => Fin.ext (by
        match a with
        | ⟨0, _⟩ => show win0_0.index t (0 : Fin 3) * 1 + 1 * 0 = win0_4.index t (0 : Fin 3); omega
        | ⟨1, _⟩ => show win0_0.index t (1 : Fin 3) * 1024 + 1 * r.val = win0_4.index t (1 : Fin 3) * 1024 + r.val; omega
        | ⟨2, _⟩ => show win0_0.index t (2 : Fin 3) * 64 + 1 * d'.val = d'.val; omega)
    rw [e]
  · intro k d'
    show V m c main_v1 (((cfg0.win 1).blk t).view.emb (ix3 (0 : Fin 1) k d')) = _
    have e : ((cfg0.win 1).blk t).view.emb (ix3 (0 : Fin 1) k d')
        = ix3 (⟨win0_4.index t (0 : Fin 3), hg⟩ : Fin 64) k d' :=
      funext fun a => Fin.ext (by
        match a with
        | ⟨0, _⟩ => show win0_1.index t (0 : Fin 3) * 1 + 1 * 0 = win0_4.index t (0 : Fin 3); omega
        | ⟨1, _⟩ => show win0_1.index t (1 : Fin 3) * 2048 + 1 * k.val = k.val; omega
        | ⟨2, _⟩ => show win0_1.index t (2 : Fin 3) * 64 + 1 * d'.val = d'.val; omega)
    rw [e]
  · intro k
    show V m c main_v2 (((cfg0.win 2).blk t).view.emb (ix3 (0 : Fin 1) k d)) = _
    have e : ((cfg0.win 2).blk t).view.emb (ix3 (0 : Fin 1) k d)
        = ix3 (⟨win0_4.index t (0 : Fin 3), hg⟩ : Fin 64) k d :=
      funext fun a => Fin.ext (by
        match a with
        | ⟨0, _⟩ => show win0_2.index t (0 : Fin 3) * 1 + 1 * 0 = win0_4.index t (0 : Fin 3); omega
        | ⟨1, _⟩ => show win0_2.index t (1 : Fin 3) * 2048 + 1 * k.val = k.val; omega
        | ⟨2, _⟩ => show win0_2.index t (2 : Fin 3) * 64 + 1 * d.val = d.val; omega)
    rw [e]
  · intro k
    show V m c main_v4 (((cfg0.win 3).blk t).view.emb (ix3 (0 : Fin 1) r k)) = _
    have e : ((cfg0.win 3).blk t).view.emb (ix3 (0 : Fin 1) r k)
        = ix3 (⟨win0_4.index t (0 : Fin 3), hg⟩ : Fin 64) (⟨win0_4.index t (1 : Fin 3) * 1024 + r.val, hq⟩ : Fin 2048) k :=
      funext fun a => Fin.ext (by
        match a with
        | ⟨0, _⟩ => show win0_3.index t (0 : Fin 3) * 1 + 1 * 0 = win0_4.index t (0 : Fin 3); omega
        | ⟨1, _⟩ => show win0_3.index t (1 : Fin 3) * 1024 + 1 * r.val = win0_4.index t (1 : Fin 3) * 1024 + r.val; omega
        | ⟨2, _⟩ => show win0_3.index t (2 : Fin 3) * 2048 + 1 * k.val = k.val; omega)
    rw [e]

/-! ## From blocks to the array -/

/-- An index of the output array is in point `t`'s block iff each coordinate is in the block's range on its axis. -/
theorem mem_blk (t : Fin cfg0.N) (i : S64x2048x64.Idx) :
    i ∈ ((cfg0.win 4).blk t).view.set ↔ ∀ a : Fin 3, win0_4.index t a * S1x1024x64.size a ≤ (i a).val
      ∧ (i a).val < win0_4.index t a * S1x1024x64.size a + S1x1024x64.size a := by
  show i ∈ ((View.whole main_v5).slice (win0_4.rect t)).set ↔ _
  rw [View.set_slice_whole, Rect.mem_set_unit]
  exact Iff.rfl

/-- Every index of the output array is in some point's block: row q of slice g belongs to point (g, q / 1024). -/
theorem cover (i : S64x2048x64.Idx) :
    ∃ t : Fin cfg0.N, (cfg0.win 4).flush t = true ∧ i ∈ ((cfg0.win 4).blk t).view.set := by
  have hi0 : (i 0).val < 64 := (i 0).isLt
  have hi1 : (i 1).val < 2048 := (i 1).isLt
  have hi2 : (i 2).val < 64 := (i 2).isLt
  obtain ⟨t, ht⟩ := index_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 64 ≤ (i 2).val ∧ (i 2).val < win0_4.index t (2 : Fin 3) * 64 + 64
    omega

/-- After the region the output array holds the region-level attention of the arrays the region found, whole:
    every block written back is a block of it, and the blocks cover the array. -/
theorem final (c : Dev nD) : (dats m 0 c).arrAt 4 cfg0.N
    = attn3 (V m c main_v0) (V m c main_v1) (V m c main_v2) (V m c main_v4) :=
  (dats m 0 c).arrAt_eq_of_cover 4 _ (fun t _ => flushed_eq m c t) cover

/-! ## The reshape after the region, and the result -/

/-- The program's result is the output array with its leading axis split in two. -/
theorem tail (c : Dev nD) :
    (Pipeline.afterTail₀ cfgs (dats m) 0 (V0 m) [hostOps1] c main_v6 : S4x16x2048x64.Idx → EReal)
      = shapeCast S4x16x2048x64 ((dats m 0 c).arrAt 4 cfg0.N) shapeCasts_S64x2048x64_S4x16x2048x64 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v5)
      = (dats m 0 c).arrAt 4 cfg0.N :=
    Pipeline.withArrays_arr spec0 launch0.win.arr_inj c _ _ 4
  rw [e]
  rfl

/-- The program's result is, index by index, the 4-D attention of the four arguments. -/
theorem result (c : Dev nD) :
    (Pipeline.afterTail₀ cfgs (dats m) 0 (V0 m) [hostOps1] c main_v6 : S4x16x2048x64.Idx → EReal)
      = Cert.Attn.attn (m ((c : Thread nD τ).loc main_arg0)) (m ((c : Thread nD τ).loc main_arg1))
          (m ((c : Thread nD τ).loc main_arg2)) (m ((c : Thread nD τ).loc main_arg3)) := by
  refine (tail m c).trans ?_
  rw [final, V_v0, V_v1, V_v2, V_v4]
  funext i
  obtain ⟨b, h, q, d, rfl⟩ : ∃ (b : Fin 4) (h : Fin 16) (q : Fin 2048) (d : Fin 64), i = ix4 b h q d :=
    ⟨i 0, i 1, i 2, i 3, eq_ix4 i⟩
  have hgl : b.val * 16 + h.val < 64 := by have := b.isLt; have := h.isLt; omega
  rw [Cert.Lib.MergeLead.shapeCast_split_apply _ shapeCasts_S64x2048x64_S4x16x2048x64 b h q d
    (⟨b.val * 16 + h.val, hgl⟩ : Fin 64) rfl]
  exact attn3_reshaped _ _ _ _ _ _ _ b h q d _ rfl

/-! ## The run, read -/

/-- Every weakly fair execution ends with the result at the attention of the arguments and the arguments unchanged. -/
theorem run : θ_run defs (onTc (τ := τ) (main (F := Ideal))) ⟨m, fun _ => 0, ρ⟩ fun r => ∀ c : Dev nD,
      r.2.mem ((c : Thread nD τ).loc main_v6)
        = Cert.Attn.attn (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v6 (Pipeline.mem_restRefs_of main_v6 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.RefIsAttn.lean ====
/- The reference program's result, read one stage at a time on the extended reals, is the attention function of
   the specification: the batched contraction of Q against K times 1/8 with the fill value under the mask is the
   score; the maximum of a row of scores taken from -infinity (and once more against -infinity, which changes
   nothing) is the row's maximum; the exponentials of the shifted scores over their row sum (from zero) are the
   softmax weights; and the batched contraction of the weights against V is the result. -/
import proofs.«121005_j38508676776685_2_alg».proof.Proof.Gen.ReferenceIdeal.Read
import proofs.«121005_j38508676776685_2_alg».proof.Proof.AttnSpec
import proofs.«121005_j38508676776685_2_alg».proof.Proof.LibMaxFold

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 x1 x2 : (⟨S4x16x2048x64, .f32⟩ : BufTy).Contents (Elt Ideal))
  (x3 : (⟨S4x16x2048x2048, .i1⟩ : BufTy).Contents (Elt Ideal))

/-- The masked score stage at (b, h, q, k). -/
theorem score_at (b : Fin 4) (h : Fin 16) (q k : Fin 2048) :
    val_main_v3 (F := Ideal) x0 x1 x3 (ix4 b h q k) = Cert.Attn.score x0 x1 x3 b h q k := by
  rw [val_main_v3_apply, val_main_call0_v1_apply, val_main_call0_v0_apply, val_main_cst_0_apply, val_main_v2_apply,
    val_main_v0_apply, val_main_v1_apply, val_main_cst_apply]
  have el : ∀ d : Fin 64, lidx_main_v0 (ix4 b h q k) d = ix4 b h q d := fun d => funext fun a => Fin.ext (by
    match a with
    | ⟨0, _⟩ => rfl
    | ⟨1, _⟩ => rfl
    | ⟨2, _⟩ => rfl
    | ⟨3, _⟩ => rfl)
  have er : ∀ d : Fin 64, ridx_main_v0 (ix4 b h q k) d = ix4 b h k d := fun d => funext fun a => Fin.ext (by
    match a with
    | ⟨0, _⟩ => rfl
    | ⟨1, _⟩ => rfl
    | ⟨2, _⟩ => rfl
    | ⟨3, _⟩ => rfl)
  simp only [el, er, Ideal.ofBits_def, Ideal.mulf_def]
  rfl

/-- The row maximum stage at (b, h, q): the maximum, from the bottom, of the row's scores. -/
theorem rowmax_at (b : Fin 4) (h : Fin 16) (q : Fin 2048) :
    val_main_v6 (F := Ideal) x0 x1 x3 (ix3 b h q)
      = (Finset.univ : Finset (Fin 2048)).fold max ⊥ (Cert.Attn.score x0 x1 x3 b h q) := by
  have hr : S4x16x2048x2048.Reduces [3] S4x16x2048 := by decide
  rw [val_main_v6_apply, val_main_v5_apply, val_main_cst_2_apply]
  unfold val_main_v4
  rw [show val_main_cst_1 (F := Ideal) = constant (F := Ideal) S_ .f32 0xFF800000#32 from rfl,
    Cert.Lib.MaxFold.hostMaxRed_apply _ reducesTo_S4x16x2048x2048_S4x16x2048_d3 hr h_S_]
  simp only [Ideal.ofBits_def, Ideal.maximumf_def, Cert.Lib.MaxFold.ofBits_neg_inf]
  rw [max_eq_right bot_le]
  refine congrArg (fun f => Finset.fold max ⊥ f Finset.univ) (funext fun k => ?_)
  show val_main_v3 (F := Ideal) x0 x1 x3 (hr.lift (ix3 b h q) k) = _
  rw [show hr.lift (ix3 b h q) k = ix4 b h q k from funext fun a => Fin.ext (by
    match a with
    | ⟨0, _⟩ => rfl
    | ⟨1, _⟩ => rfl
    | ⟨2, _⟩ => rfl
    | ⟨3, _⟩ => rfl)]
  exact score_at x0 x1 x3 b h q k

/-- The shifted exponential stage at (b, h, q, k). -/
theorem expo_at (b : Fin 4) (h : Fin 16) (q k : Fin 2048) :
    val_main_v10 (F := Ideal) x0 x1 x3 (ix4 b h q k)
      = Ideal.exp (Cert.Attn.score x0 x1 x3 b h q k
          - (Finset.univ : Finset (Fin 2048)).fold max ⊥ (Cert.Attn.score x0 x1 x3 b h q)) := by
  rw [val_main_v10_apply, val_main_v9_apply, val_main_v8_apply, val_main_v7_apply, score_at,
    show idx_main_v7 (idx_main_v8 (ix4 b h q k)) = ix3 b h q from funext fun a => Fin.ext (by
      match a with
      | ⟨0, _⟩ => rfl
      | ⟨1, _⟩ => rfl
      | ⟨2, _⟩ => rfl),
    rowmax_at]
  simp only [Ideal.hostUnary_exp_def, Ideal.subf_def]

/-- The weight stage at (b, h, q, k): the softmax of row q's scores at k. -/
theorem weight_at (b : Fin 4) (h : Fin 16) (q k : Fin 2048) :
    val_main_v14 (F := Ideal) x0 x1 x3 (ix4 b h q k)
      = Cert.Lib.RowSoftmax.softmaxRow (Cert.Attn.score x0 x1 x3 b h q) k := by
  rw [val_main_v14_apply, val_main_v13_apply, val_main_v12_apply, val_main_v11_apply, val_main_cst_3_apply, expo_at]
  simp only [Ideal.hostDivf_def, Ideal.ofBits_def, Ideal.ofBits_zero_f32, zero_add]
  unfold Cert.Lib.RowSoftmax.softmaxRow
  refine congrArg (Ideal.div _) (Finset.sum_congr rfl fun k' _ => ?_)
  rw [show idx_main_v11 (idx_main_v12 (idx_main_v13 (ix4 b h q k))) k' = ix4 b h q k' from funext fun a => Fin.ext (by
    match a with
    | ⟨0, _⟩ => rfl
    | ⟨1, _⟩ => rfl
    | ⟨2, _⟩ => rfl
    | ⟨3, _⟩ => rfl)]
  exact expo_at x0 x1 x3 b h q k'

/-- The reference's result is the attention function of its four arguments. -/
theorem result_eq : val_main_v15 (F := Ideal) x0 x1 x2 x3 = Cert.Attn.attn x0 x1 x2 x3 := by
  funext i
  obtain ⟨b, h, q, d, rfl⟩ : ∃ (b : Fin 4) (h : Fin 16) (q : Fin 2048) (d : Fin 64), i = ix4 b h q d :=
    ⟨i 0, i 1, i 2, i 3, eq_ix4 i⟩
  rw [val_main_v15_apply]
  show _ = ∑ k : Fin 2048, Cert.Lib.RowSoftmax.softmaxRow (Cert.Attn.score x0 x1 x3 b h q) k * x2 (ix4 b h k d)
  refine Finset.sum_congr rfl fun k _ => ?_
  rw [show lidx_main_v15 (ix4 b h q d) k = ix4 b h q k from funext fun a => Fin.ext (by
      match a with
      | ⟨0, _⟩ => rfl
      | ⟨1, _⟩ => rfl
      | ⟨2, _⟩ => rfl
      | ⟨3, _⟩ => rfl),
    show ridx_main_v15 (ix4 b h q d) k = ix4 b h k d from funext fun a => Fin.ext (by
      match a with
      | ⟨0, _⟩ => rfl
      | ⟨1, _⟩ => rfl
      | ⟨2, _⟩ => rfl
      | ⟨3, _⟩ => rfl),
    weight_at]

end Cert.ReferenceIdeal.RefValue

end
-- ==== Proof.lean ====
/- Masked scaled dot-product attention over [4, 16, 2048, 64] queries, keys and values with a [4, 16, 2048, 2048]
   boolean mask: a tiled kernel against the plain formulation.

   The kernel merges batch and head into one axis of 64 slices, widens the mask to words, and runs a 64 x 2 grid; a
   grid point holds 1024 query rows of a slice with all of the slice's key and value rows, scales the query rows by
   1/8, contracts them with the key rows, writes the fill value -10^9 where the mask is set, takes the row softmax
   (maximum from -infinity, exponentials of the shifted scores, their row sum from zero, a quotient) and contracts the
   weights with the value rows; the result is reshaped back to four axes.  The reference contracts Q with K over all
   batches and heads at once, scales the scores by 1/8, applies the same fill, the same softmax and the same
   contraction with V.

   Read on the extended reals both are ONE function of the four arguments (`Cert.Attn.attn`).  The only algebraic
   difference is where the factor 1/8 sits — on every feature of Q, or on the contraction — and a nonnegative real
   factor distributes over any finite sum of extended reals, so nothing is assumed finite.  The tiling is invisible
   index by index: the blocks written back tile the output, and each block is the whole-array function read through
   it.  The kernel's idealization rewrote no operation, so that conjunct is trivial; the three frames are the
   generated frame runs (the reference's with its result dropped). -/
import proofs.«121005_j38508676776685_2_alg».proof.Defs
import proofs.«121005_j38508676776685_2_alg».proof.Proof.Gen.Kernel
import proofs.«121005_j38508676776685_2_alg».proof.Proof.Gen.Kernel.Skeleton
import proofs.«121005_j38508676776685_2_alg».proof.Proof.Gen.Kernel.Launch
import proofs.«121005_j38508676776685_2_alg».proof.Proof.Gen.Kernel.Points
import proofs.«121005_j38508676776685_2_alg».proof.Proof.Gen.Kernel.Frame
import proofs.«121005_j38508676776685_2_alg».proof.Proof.Gen.KernelIdeal
import proofs.«121005_j38508676776685_2_alg».proof.Proof.Gen.KernelIdeal.Skeleton
import proofs.«121005_j38508676776685_2_alg».proof.Proof.Gen.KernelIdeal.Launch
import proofs.«121005_j38508676776685_2_alg».proof.Proof.Gen.KernelIdeal.Points
import proofs.«121005_j38508676776685_2_alg».proof.Proof.Gen.KernelIdeal.Frame
import proofs.«121005_j38508676776685_2_alg».proof.Proof.Gen.ReferenceIdeal
import proofs.«121005_j38508676776685_2_alg».proof.Proof.Gen.Pre_finite_inputs
import proofs.«121005_j38508676776685_2_alg».proof.Proof.Gen.ReferenceIdeal.Run
import proofs.«121005_j38508676776685_2_alg».proof.Proof.Gen.ReferenceIdeal.Read
import proofs.«121005_j38508676776685_2_alg».proof.Proof.KernelValue
import proofs.«121005_j38508676776685_2_alg».proof.Proof.RefIsAttn
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: there is no conjunct to state. -/
theorem preserves : Cert.preserves_Kernel_KernelIdeal := trivial

/-- Both idealized programs end with their result at the attention function of the arguments: the kernel's by its
    blocks tiling the output, the reference's stage by stage; the arguments agree, so the results are equal. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
